-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v49)) (v4 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg4 : FVec F S262144 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S262144 .f32 := Host.absf main_arg4
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  main_v23

def fn {F : FTy → Type} [FloatOps F] (main_arg0 : FVec F S8192x512 .f32) (main_arg1 : FVec F S512x256 .f32) (main_arg2 : FVec F S256x128 .f32) (main_arg3 : FVec F S256x128 .f32) (main_arg4 : FVec F S262144 .f32) (main_arg5 : IVec S262144 32) (main_arg6 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S8192x256 : Shape := ⟨2, ![8192, 256]⟩
abbrev S1024x512 : Shape := ⟨2, ![1024, 512]⟩
abbrev S1024x256 : Shape := ⟨2, ![1024, 256]⟩
abbrev S262144x1 : Shape := ⟨2, ![262144, 1]⟩
abbrev S_ : Shape := ⟨0, ![]⟩
abbrev S262144x256 : Shape := ⟨2, ![262144, 256]⟩
abbrev S256x256 : Shape := ⟨2, ![256, 256]⟩
abbrev S8192x128 : Shape := ⟨2, ![8192, 128]⟩
abbrev S262144x128 : Shape := ⟨2, ![262144, 128]⟩
abbrev S8192x8192 : Shape := ⟨2, ![8192, 8192]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 69
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x128, .f32⟩
  | .hbm, ⟨3, _⟩ => ⟨S256x128, .f32⟩
  | .hbm, ⟨4, _⟩ => ⟨S262144, .f32⟩
  | .hbm, ⟨5, _⟩ => ⟨S262144, .i32⟩
  | .hbm, ⟨6, _⟩ => ⟨S262144, .i32⟩
  | .hbm, ⟨7, _⟩ => ⟨S8192x512, .bf16⟩
  | .hbm, ⟨8, _⟩ => ⟨S512x256, .bf16⟩
  | .hbm, ⟨9, _⟩ => ⟨S8192x256, .f32⟩
  | .hbm, ⟨10, _⟩ => ⟨S262144x1, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S8192x256, .f32⟩
  | .hbm, ⟨24, _⟩ => ⟨S262144x1, .i32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S256x256, .f32⟩
  | .hbm, ⟨30, _⟩ => ⟨S256x256, .bf16⟩
  | .hbm, ⟨31, _⟩ => ⟨S8192x256, .bf16⟩
  | .hbm, ⟨32, _⟩ => ⟨S8192x256, .f32⟩
  | .hbm, ⟨33, _⟩ => ⟨S8192x128, .f32⟩
  | .hbm, ⟨34, _⟩ => ⟨S8192x128, .f32⟩
  | .hbm, ⟨35, _⟩ => ⟨S262144x1, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S8192x128, .f32⟩
  | .hbm, ⟨49, _⟩ => ⟨S262144x1, .i32⟩
  | .hbm, ⟨50, _⟩ => ⟨S8192x128, .f32⟩
  | .hbm, ⟨51, _⟩ => ⟨S262144x1, .f32⟩
  | .hbm, ⟨52, _⟩ => ⟨S_, .i32⟩
  | .hbm, ⟨53, _⟩ => ⟨S262144, .i32⟩
  | .hbm, ⟨54, _⟩ => ⟨S262144, .i1⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144, .i32⟩
  | .hbm, ⟨59, _⟩ => ⟨S262144x1, .i32⟩
  | .hbm, ⟨60, _⟩ => ⟨S262144x128, .f32⟩
  | .hbm, ⟨61, _⟩ => ⟨S262144x128, .f32⟩
  | .hbm, ⟨62, _⟩ => ⟨S262144x128, .f32⟩
  | .hbm, ⟨63, _⟩ => ⟨S_, .f32⟩
  | .hbm, ⟨64, _⟩ => ⟨S8192x128, .f32⟩
  | .hbm, ⟨65, _⟩ => ⟨S262144x1, .i32⟩
  | .hbm, ⟨66, _⟩ => ⟨S8192x128, .f32⟩
  | .hbm, ⟨67, _⟩ => ⟨S8192x128, .bf16⟩
  | .hbm, ⟨68, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | .local _ .vmem, ⟨7, _⟩ => ⟨S256x256, .bf16⟩
  | .local _ .vmem, ⟨8, _⟩ => ⟨S1024x256, .f32⟩
  | .local _ .vmem, ⟨9, _⟩ => ⟨S1024x256, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x1024, .f32⟩
  | .local _ .vmem, ⟨15, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  concatenates_S256x128_S256x128_S256x256_d1 : Shape.Concatenates [S256x128, S256x128] S256x256 1
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S8192x256_S8192x128_0_0 : S8192x256.Slices ![0, 0] S8192x128
  slices_S8192x256_S8192x128_0_128 : S8192x256.Slices ![0, 128] S8192x128
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  dot_S1024x512_S512x256_S1024x256_1_0_0_1_n_n_wf : DotDims.WF S1024x512 S512x256 S1024x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x256_S1024x256_1_0_0_1_n_n_wf : DotDims.WF S1024x256 S256x256 S1024x256 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S512x256 : Shape := ⟨2, ![512, 256]⟩
abbrev S256x128 : Shape := ⟨2, ![256, 128]⟩
abbrev S262144 : Shape := ⟨1, ![262144]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S8192x128 : Shape := ⟨2, ![8192, 128]⟩
abbrev S262144x128 : Shape := ⟨2, ![262144, 128]⟩
abbrev S128x8192 : Shape := ⟨2, ![128, 8192]⟩
abbrev S8192x8192 : Shape := ⟨2, ![8192, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x128, .f32⟩
  | .hbm, ⟨3, _⟩ => ⟨S256x128, .f32⟩
  | .hbm, ⟨4, _⟩ => ⟨S262144, .f32⟩
  | .hbm, ⟨5, _⟩ => ⟨S262144, .i32⟩
  | .hbm, ⟨6, _⟩ => ⟨S262144, .i32⟩
  | .hbm, ⟨7, _⟩ => ⟨S8192x256, .f32⟩
  | .hbm, ⟨8, _⟩ => ⟨S262144x1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S_, .f32⟩
  | .hbm, ⟨21, _⟩ => ⟨S8192x256, .f32⟩
  | .hbm, ⟨22, _⟩ => ⟨S262144x1, .i32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x128, .f32⟩
  | .hbm, ⟨28, _⟩ => ⟨S262144x1, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S8192x128, .f32⟩
  | .hbm, ⟨42, _⟩ => ⟨S262144x1, .i32⟩
  | .hbm, ⟨43, _⟩ => ⟨S8192x128, .f32⟩
  | .hbm, ⟨44, _⟩ => ⟨S8192x128, .f32⟩
  | .hbm, ⟨45, _⟩ => ⟨S262144x1, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x128, .f32⟩
  | .hbm, ⟨55, _⟩ => ⟨S262144x128, .f32⟩
  | .hbm, ⟨56, _⟩ => ⟨S262144x128, .f32⟩
  | .hbm, ⟨57, _⟩ => ⟨S_, .f32⟩
  | .hbm, ⟨58, _⟩ => ⟨S8192x128, .f32⟩
  | .hbm, ⟨59, _⟩ => ⟨S262144x1, .i32⟩
  | .hbm, ⟨60, _⟩ => ⟨S8192x128, .f32⟩
  | .hbm, ⟨61, _⟩ => ⟨S128x8192, .f32⟩
  | .hbm, ⟨62, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  transposes_S8192x128_S128x8192_1_0 : S8192x128.Transposes [1, 0] S128x8192
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KRegion0.lean ====
/-
  Pallas call 0 of the program: one dense product per grid point. At point t the body reads the whole block of
  its left operand (rows 1024·t … 1024·t+1023) and the whole right operand, multiplies them into a zero
  accumulator and stores the product over the whole output block. This file states what the body leaves in the
  output block as a function of the two input blocks, proves the body's triple, and packages the per-point
  contents as the pipeline's proof data at any contents V of the buffers on entry.
-/
import proofs.«122993_j38096359915635_1_alg».proof.Proof.Gen.Kernel.Launch
import proofs.«122993_j38096359915635_1_alg».proof.Proof.Gen.Kernel.Skeleton
import proofs.«122993_j38096359915635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1024x512 := Rect.unit (s := S1024x512) ![0, 0] S1024x512.size inb_S1024x512_S1024x512_0_0
abbrev rB0 : Rect S512x256 := Rect.unit (s := S512x256) ![0, 0] S512x256.size inb_S512x256_S512x256_0_0
abbrev rC0 : Rect S1024x256 := Rect.unit (s := S1024x256) ![0, 0] S1024x256.size inb_S1024x256_S1024x256_0_0

/-- The output block after the body: the product of the two input blocks, stored over the whole block. -/
def out0 (x0 : Vec F S1024x512 .bf16) (x1 : Vec F S512x256 .bf16) : Vec F S1024x256 .f32 :=
  View.canon [⟨rC0, k0_pay1 (View.ld x0 rA0) (View.ld x1 rB0)⟩]

/-- The one store covers the output block. -/
theorem cover0 (p0 : Vec F S1024x256 .f32) (y : S1024x256.Idx) :
    ∃ pc ∈ ([⟨rC0, p0⟩] : List (View.Piece (Elt F) S1024x256 .f32)), y ∈ pc.1.set :=
  View.cover_of_tiled [⟨rC0, p0⟩] S1024x256.size (by rfl) y

set_option maxHeartbeats 1000000 in
/-- The body on whole buffers: the inputs keep their contents, the output ends at the product. -/
theorem sound_kernel0 (c : Dev nD) (E : Set ℕ) (i : grid0.Coords)
    (arg1 : Memref sig .tc .vmem S1024x512 .bf16) (harg1 : arg1.IsWhole) (arg2 : Memref sig .tc .vmem S512x256 .bf16) (harg2 : arg2.IsWhole)
    (arg3 : Memref sig .tc .vmem S1024x256 .f32) (harg3 : arg3.IsWhole)
    (x0 : Vec F S1024x512 .bf16) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__dense_mm_kernel i arg1 harg1 arg2 harg2 arg3 harg3) K := by
  simp only [cc0__dense_mm_kernel_eq_skeleton]; unfold cc0__dense_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of this call on core c: the arrays as the call finds them; after the body at point t each
    input's buffer at its block and the output's at the product of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- An input's current buffer holds its block at every point, whether or not the block was fetched there
    (an unfetched block is the previous point's: its index did not move). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Pallas call 1 of the program: one dense product per grid point. At point t the body reads the whole block of
  its left operand (rows 1024·t … 1024·t+1023) and the whole right operand, multiplies them into a zero
  accumulator and stores the product over the whole output block. This file states what the body leaves in the
  output block as a function of the two input blocks, proves the body's triple, and packages the per-point
  contents as the pipeline's proof data at any contents V of the buffers on entry.
-/
import proofs.«122993_j38096359915635_1_alg».proof.Proof.Gen.Kernel.Launch
import proofs.«122993_j38096359915635_1_alg».proof.Proof.Gen.Kernel.Skeleton
import proofs.«122993_j38096359915635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1024x256 := Rect.unit (s := S1024x256) ![0, 0] S1024x256.size inb_S1024x256_S1024x256_0_0
abbrev rB1 : Rect S256x256 := Rect.unit (s := S256x256) ![0, 0] S256x256.size inb_S256x256_S256x256_0_0
abbrev rC1 : Rect S1024x256 := Rect.unit (s := S1024x256) ![0, 0] S1024x256.size inb_S1024x256_S1024x256_0_0

/-- The output block after the body: the product of the two input blocks, stored over the whole block. -/
def out1 (x0 : Vec F S1024x256 .bf16) (x1 : Vec F S256x256 .bf16) : Vec F S1024x256 .f32 :=
  View.canon [⟨rC1, k1_pay1 (View.ld x0 rA1) (View.ld x1 rB1)⟩]

/-- The one store covers the output block. -/
theorem cover1 (p0 : Vec F S1024x256 .f32) (y : S1024x256.Idx) :
    ∃ pc ∈ ([⟨rC1, p0⟩] : List (View.Piece (Elt F) S1024x256 .f32)), y ∈ pc.1.set :=
  View.cover_of_tiled [⟨rC1, p0⟩] S1024x256.size (by rfl) y

set_option maxHeartbeats 1000000 in
/-- The body on whole buffers: the inputs keep their contents, the output ends at the product. -/
theorem sound_kernel1 (c : Dev nD) (E : Set ℕ) (i : grid1.Coords)
    (arg1 : Memref sig .tc .vmem S1024x256 .bf16) (harg1 : arg1.IsWhole) (arg2 : Memref sig .tc .vmem S256x256 .bf16) (harg2 : arg2.IsWhole)
    (arg3 : Memref sig .tc .vmem S1024x256 .f32) (harg3 : arg3.IsWhole)
    (x0 : Vec F S1024x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__dense_mm_kernel i arg1 harg1 arg2 harg2 arg3 harg3) K := by
  simp only [cc1__dense_mm_kernel_eq_skeleton]; unfold cc1__dense_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of this call on core c: the arrays as the call finds them; after the body at point t each
    input's buffer at its block and the output's at the product of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- An input's current buffer holds its block at every point, whether or not the block was fetched there
    (an unfetched block is the previous point's: its index did not move). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  Pallas call 2 of the program: z·zᵀ, tiled over an 8×8 grid. At point (i, j) the body reads row block i of z
  through its first window and row block j of the SAME array z through its second window, transposes the second,
  multiplies into a zero accumulator and stores the 1024×1024 product over the whole output block (i, j). This file
  states what the body leaves in the output block as a function of the two input blocks, proves the body's triple,
  and packages the per-point contents as the pipeline's proof data at any contents V of the buffers on entry. The
  two input windows sit on one array, so each holds half of that array's share.
-/
import proofs.«122993_j38096359915635_1_alg».proof.Proof.Gen.Kernel.Launch
import proofs.«122993_j38096359915635_1_alg».proof.Proof.Gen.Kernel.Skeleton
import proofs.«122993_j38096359915635_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1024x128 := Rect.unit (s := S1024x128) ![0, 0] S1024x128.size inb_S1024x128_S1024x128_0_0
abbrev rB2 : Rect S1024x128 := Rect.unit (s := S1024x128) ![0, 0] S1024x128.size inb_S1024x128_S1024x128_0_0
abbrev rC2 : Rect S1024x1024 := Rect.unit (s := S1024x1024) ![0, 0] S1024x1024.size inb_S1024x1024_S1024x1024_0_0

/-- The output block after the body: the product of the two input blocks, stored over the whole block. -/
def out2 (x0 : Vec F S1024x128 .bf16) (x1 : Vec F S1024x128 .bf16) : Vec F S1024x1024 .f32 :=
  View.canon [⟨rC2, k2_pay1 (View.ld x0 rA2) (View.ld x1 rB2)⟩]

/-- The one store covers the output block. -/
theorem cover2 (p0 : Vec F S1024x1024 .f32) (y : S1024x1024.Idx) :
    ∃ pc ∈ ([⟨rC2, p0⟩] : List (View.Piece (Elt F) S1024x1024 .f32)), y ∈ pc.1.set :=
  View.cover_of_tiled [⟨rC2, p0⟩] S1024x1024.size (by rfl) y

set_option maxHeartbeats 1000000 in
/-- The body on whole buffers: the inputs keep their contents, the output ends at the product. -/
theorem sound_kernel2 (c : Dev nD) (E : Set ℕ) (i : grid2.Coords)
    (arg1 : Memref sig .tc .vmem S1024x128 .bf16) (harg1 : arg1.IsWhole) (arg2 : Memref sig .tc .vmem S1024x128 .bf16) (harg2 : arg2.IsWhole)
    (arg3 : Memref sig .tc .vmem S1024x1024 .f32) (harg3 : arg3.IsWhole)
    (x0 : Vec F S1024x128 .bf16) (x1 : Vec F S1024x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__sym_mm_kernel i arg1 harg1 arg2 harg2 arg3 harg3) K := by
  simp only [cc2__sym_mm_kernel_eq_skeleton]; unfold cc2__sym_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of this call on core c: the arrays as the call finds them; after the body at point t each
    input's buffer at its block and the output's at the product of the input blocks; nothing owed; the two input windows at the two halves of their common array's share, the output at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- An input's current buffer holds its block at every point, whether or not the block was fetched there
    (an unfetched block is the previous point's: its index did not move). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShared2.lean ====
/-
  Pallas call 2 reads ONE array, z, through two windows (row block i and row block j). The pipeline wants each
  window to hold its array at some share; the two windows on z hold the two halves of z's full share, and the output
  window holds its array whole. This file moves between that form and the plain form "every buffer not private to a
  call is held whole": on entry z's full share is split in two, on exit the halves are put back together.
-/
import proofs.«122993_j38096359915635_1_alg».proof.Proof.KRegion2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the three windows' arrays: z and the output. -/
theorem arrImage2 : (Finset.univ.image (Pipeline.arrRef (cfgs 2).spec) : Finset (Ref sig .tc)) = {main_v50, main_v51} := by decide

/-- The windows' arrays at contents G, window by window: z at its left half-share for window 0, z at its right
    half-share for window 1, the output at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v50) ↦{fullShare.left} G 0) ∗ (((c : Thread nD τ).loc main_v50) ↦{fullShare.right} G 1)
          ∗ (((c : Thread nD τ).loc main_v51) ↦{fullShare} G 2)) := by
  unfold Dat.arrays
  rw [bigSep_W2, (arr_whole2 0).set_eq_univ, (arr_whole2 2).set_eq_univ]
  rfl

/-- ENTRY: every unshared buffer held whole at V gives the three windows their arrays at V, z's share split in two,
    beside the buffers the call does not touch. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 winFacts₀2.arr_unscoped c (V c)]
  refine sep_mono ?_ .rfl
  unfold Pipeline.arrBufs
  rw [arrImage2, bigSep_insert (by decide), bigSep_singleton, arrays2_eq]
  exact (sep_mono (pointsTo_share (PosShare.mem_left_op_right fullShare)).1 .rfl).trans Idealize.SL.BI.sep_assoc

/-- EXIT: the three windows' arrays at contents G — the two windows on z agreeing with a valuation V' there, the
    output's being V' at the output — beside the untouched buffers at V are every unshared buffer held whole at
    V', when V' agrees with V off the two arrays. -/
theorem exit2 (c : Dev nD) (V' : (b : Ref sig .tc) → Buf (Elt F) ((c : Thread nD τ).loc b))
    (G : (w : Fin cfg2.W) → Buf (Elt F) ((cfg2.win w).arr.view.loc (c : Thread nD τ)))
    (h0 : G 0 = V' main_v50) (h1 : G 1 = V' main_v50) (h2 : G 2 = V' main_v51)
    (hrest : ∀ b, b ∉ Finset.univ.image (Pipeline.arrRef spec2) → V' b = V c b) :
    iprop((dat2 V c).arrays G ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs
    rw [arrImage2, bigSep_insert (by decide), bigSep_singleton, arrays2_eq, h0, h1, h2]
    exact Idealize.SL.BI.sep_assoc'.trans (sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.KRun.lean ====
/-
  The whole run of the program: three pallas calls between stretches of host operations. The contents of every
  buffer not private to a call are followed from launch to return (W0 … W6): a stretch of host operations applies
  its operations in order; a pallas call replaces its output array by what its write-backs leave and changes nothing
  else. Each call is a segment whose body obligation is the per-point triple proved for it; the last call reads one
  array through two windows and is entered by splitting that array's share. The result: every weakly fair execution
  terminates without a fault, and the final memory holds W6 at every such buffer — in particular the arguments as
  launched, which no host operation and no call writes.
-/
import proofs.«122993_j38096359915635_1_alg».proof.Proof.KRegion0
import proofs.«122993_j38096359915635_1_alg».proof.Proof.KRegion1
import proofs.«122993_j38096359915635_1_alg».proof.Proof.KShared2
import proofs.«122993_j38096359915635_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m (c, b)

/-- After the host operations hostOps0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After pallas call 0: its output array holds what the call's write-backs leave, every other buffer is as before. -/
def W2 (c : Dev nD) : Valuation τ sig (Elt F) :=
  Function.update (W1 m c) (Proc.devRef .tc main_v2) ((dat0 (U1 m) c).arrAt 2 cfg0.N)
abbrev U2 : (c : Dev nD) → (b : Ref sig .tc) → Buf (Elt F) ((c : Thread nD τ).loc b) := fun c b => W2 m c b
theorem W2_out (c : Dev nD) : W2 m c (Proc.devRef .tc main_v2) = (dat0 (U1 m) c).arrAt 2 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
/-- On exit each window's array holds what the pipeline leaves in it: an input's is untouched, the output's is the new contents. -/
theorem hF0 (c : Dev nD) : ∀ w : Fin cfg0.W, (dat0 (U1 m) c).arrAt w cfg0.N = U2 m c (Pipeline.arrRef spec0 w)
  | ⟨0, _⟩ => ((dat0 (U1 m) c).arrAt_in 0 rfl _).trans ((A_eq0 (U1 m) c 0).trans (W2_of_ne m c main_v0 (by decide)).symm)
  | ⟨1, _⟩ => ((dat0 (U1 m) c).arrAt_in 1 rfl _).trans ((A_eq0 (U1 m) c 1).trans (W2_of_ne m c main_v1 (by decide)).symm)
  | ⟨2, _⟩ => (W2_out m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

/-- After the host operations hostOps1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After pallas call 1: its output array holds what the call's write-backs leave, every other buffer is as before. -/
def W4 (c : Dev nD) : Valuation τ sig (Elt F) :=
  Function.update (W3 m c) (Proc.devRef .tc main_v21) ((dat1 (U3 m) c).arrAt 2 cfg1.N)
abbrev U4 : (c : Dev nD) → (b : Ref sig .tc) → Buf (Elt F) ((c : Thread nD τ).loc b) := fun c b => W4 m c b
theorem W4_out (c : Dev nD) : W4 m c (Proc.devRef .tc main_v21) = (dat1 (U3 m) c).arrAt 2 cfg1.N := by
  unfold W4; exact Function.update_self ..
theorem W4_of_ne (c : Dev nD) (b : Ref sig .tc) (hb : b ≠ main_v21) : W4 m c (Proc.devRef .tc b) = W3 m c (Proc.devRef .tc b) := by
  unfold W4; exact Function.update_of_ne (StableHlo.devRef_ne_of_ne hb) _ _
/-- On exit each window's array holds what the pipeline leaves in it: an input's is untouched, the output's is the new contents. -/
theorem hF1 (c : Dev nD) : ∀ w : Fin cfg1.W, (dat1 (U3 m) c).arrAt w cfg1.N = U4 m c (Pipeline.arrRef spec1 w)
  | ⟨0, _⟩ => ((dat1 (U3 m) c).arrAt_in 0 rfl _).trans ((A_eq1 (U3 m) c 0).trans (W4_of_ne m c main_v20 (by decide)).symm)
  | ⟨1, _⟩ => ((dat1 (U3 m) c).arrAt_in 1 rfl _).trans ((A_eq1 (U3 m) c 1).trans (W4_of_ne m c main_v19 (by decide)).symm)
  | ⟨2, _⟩ => (W4_out m c).symm
theorem hrest1 (c : Dev nD) : ∀ b, b ∉ Finset.univ.image (Pipeline.arrRef spec1) → U4 m c b = U3 m c b :=
  fun b hb => W4_of_ne m c b fun e => hb (Finset.mem_image.mpr ⟨2, Finset.mem_univ _, e.symm⟩)

/-- After the host operations hostOps2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- After pallas call 2: its output array holds what the call's write-backs leave, every other buffer is as before. -/
def W6 (c : Dev nD) : Valuation τ sig (Elt F) :=
  Function.update (W5 m c) (Proc.devRef .tc main_v51) ((dat2 (U5 m) c).arrAt 2 cfg2.N)
abbrev U6 : (c : Dev nD) → (b : Ref sig .tc) → Buf (Elt F) ((c : Thread nD τ).loc b) := fun c b => W6 m c b
theorem W6_out (c : Dev nD) : W6 m c (Proc.devRef .tc main_v51) = (dat2 (U5 m) c).arrAt 2 cfg2.N := by
  unfold W6; exact Function.update_self ..
theorem W6_of_ne (c : Dev nD) (b : Ref sig .tc) (hb : b ≠ main_v51) : W6 m c (Proc.devRef .tc b) = W5 m c (Proc.devRef .tc b) := by
  unfold W6; exact Function.update_of_ne (StableHlo.devRef_ne_of_ne hb) _ _
/-- On exit each window's array holds what the pipeline leaves in it: an input's is untouched, the output's is the new contents. -/
theorem hF2 (c : Dev nD) : ∀ w : Fin cfg2.W, (dat2 (U5 m) c).arrAt w cfg2.N = U6 m c (Pipeline.arrRef spec2 w)
  | ⟨0, _⟩ => ((dat2 (U5 m) c).arrAt_in 0 rfl _).trans ((A_eq2 (U5 m) c 0).trans (W6_of_ne m c main_v50 (by decide)).symm)
  | ⟨1, _⟩ => ((dat2 (U5 m) c).arrAt_in 1 rfl _).trans ((A_eq2 (U5 m) c 1).trans (W6_of_ne m c main_v50 (by decide)).symm)
  | ⟨2, _⟩ => (W6_out m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)

/-- A buffer that no host operation writes and that is no call's output ends as launched. -/
theorem W6_keeps (c : Dev nD) (b : Ref sig .tc) (h0 : b ∉ hostOps0_W) (h1 : b ∉ hostOps1_W) (h2 : b ∉ hostOps2_W)
    (hb2 : b ≠ main_v2) (hb21 : b ≠ main_v21) (hb51 : b ≠ main_v51) :
    W6 m c (Proc.devRef .tc b) = m ((c : Thread nD τ).loc b) :=
  (W6_of_ne m c b hb51).trans <| (StableHlo.after_of_writes_sub hostOps2 _ hostOps2_writes h2).trans <|
    (W4_of_ne m c b hb21).trans <| (StableHlo.after_of_writes_sub hostOps1 _ hostOps1_writes h1).trans <|
    (W2_of_ne m c b hb2).trans <| (StableHlo.after_of_writes_sub hostOps0 _ hostOps0_writes h0).trans rfl
theorem W6_main_arg0 (c : Dev nD) : W6 m c (Proc.devRef .tc main_arg0) = m ((c : Thread nD τ).loc main_arg0) :=
  W6_keeps m c main_arg0 (by decide) (by decide) (by decide) (by decide) (by decide) (by decide)
theorem W6_main_arg1 (c : Dev nD) : W6 m c (Proc.devRef .tc main_arg1) = m ((c : Thread nD τ).loc main_arg1) :=
  W6_keeps m c main_arg1 (by decide) (by decide) (by decide) (by decide) (by decide) (by decide)
theorem W6_main_arg2 (c : Dev nD) : W6 m c (Proc.devRef .tc main_arg2) = m ((c : Thread nD τ).loc main_arg2) :=
  W6_keeps m c main_arg2 (by decide) (by decide) (by decide) (by decide) (by decide) (by decide)
theorem W6_main_arg3 (c : Dev nD) : W6 m c (Proc.devRef .tc main_arg3) = m ((c : Thread nD τ).loc main_arg3) :=
  W6_keeps m c main_arg3 (by decide) (by decide) (by decide) (by decide) (by decide) (by decide)
theorem W6_main_arg4 (c : Dev nD) : W6 m c (Proc.devRef .tc main_arg4) = m ((c : Thread nD τ).loc main_arg4) :=
  W6_keeps m c main_arg4 (by decide) (by decide) (by decide) (by decide) (by decide) (by decide)
theorem W6_main_arg5 (c : Dev nD) : W6 m c (Proc.devRef .tc main_arg5) = m ((c : Thread nD τ).loc main_arg5) :=
  W6_keeps m c main_arg5 (by decide) (by decide) (by decide) (by decide) (by decide) (by decide)
theorem W6_main_arg6 (c : Dev nD) : W6 m c (Proc.devRef .tc main_arg6) = m ((c : Thread nD τ).loc main_arg6) :=
  W6_keeps m c main_arg6 (by decide) (by decide) (by decide) (by decide) (by decide) (by decide)

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unshared buffer at W6, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Pallas call 0 as a segment of the program: entered with every unshared buffer held at W1, left with them
    at W2. Its windows' arrays are taken out of those buffers on entry and put back at their final contents on
    exit; the generator register passes through the call's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unshared buffer held at W3, left with them
    at W4. Its windows' arrays are taken out of those buffers on entry and put back at their final contents on
    exit; the generator register passes through the call's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of the program: entered with every unshared buffer held at W5, left with them
    at W6. Its windows' arrays are taken out of those buffers on entry and put back at their final contents on
    exit; the generator register passes through the call's invariant; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := entry2 (F := F) (U5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) (U5 m) c (U6 m c) ((pdats m 2 c).arrAt · cfg2.N) (hF2 m c 0) (hF2 m c 1) (hF2 m c 2) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- The program's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds W6 at every buffer that is not private to a call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.Kernel.Hand

end
-- ==== Proof.KIRegion0.lean ====
/-
  Pallas call 0 of the program: one dense product per grid point. At point t the body reads the whole block of
  its left operand (rows 1024·t … 1024·t+1023) and the whole right operand, multiplies them into a zero
  accumulator and stores the product over the whole output block. This file states what the body leaves in the
  output block as a function of the two input blocks, proves the body's triple, and packages the per-point
  contents as the pipeline's proof data at any contents V of the buffers on entry.
-/
import proofs.«122993_j38096359915635_1_alg».proof.Proof.Gen.KernelIdeal.Launch
import proofs.«122993_j38096359915635_1_alg».proof.Proof.Gen.KernelIdeal.Skeleton
import proofs.«122993_j38096359915635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1024x512 := Rect.unit (s := S1024x512) ![0, 0] S1024x512.size inb_S1024x512_S1024x512_0_0
abbrev rB0 : Rect S512x256 := Rect.unit (s := S512x256) ![0, 0] S512x256.size inb_S512x256_S512x256_0_0
abbrev rC0 : Rect S1024x256 := Rect.unit (s := S1024x256) ![0, 0] S1024x256.size inb_S1024x256_S1024x256_0_0

/-- The output block after the body: the product of the two input blocks, stored over the whole block. -/
def out0 (x0 : Vec F S1024x512 .bf16) (x1 : Vec F S512x256 .bf16) : Vec F S1024x256 .f32 :=
  View.canon [⟨rC0, k0_pay1 (View.ld x0 rA0) (View.ld x1 rB0)⟩]

/-- The one store covers the output block. -/
theorem cover0 (p0 : Vec F S1024x256 .f32) (y : S1024x256.Idx) :
    ∃ pc ∈ ([⟨rC0, p0⟩] : List (View.Piece (Elt F) S1024x256 .f32)), y ∈ pc.1.set :=
  View.cover_of_tiled [⟨rC0, p0⟩] S1024x256.size (by rfl) y

set_option maxHeartbeats 1000000 in
/-- The body on whole buffers: the inputs keep their contents, the output ends at the product. -/
theorem sound_kernel0 (c : Dev nD) (E : Set ℕ) (i : grid0.Coords)
    (arg1 : Memref sig .tc .vmem S1024x512 .bf16) (harg1 : arg1.IsWhole) (arg2 : Memref sig .tc .vmem S512x256 .bf16) (harg2 : arg2.IsWhole)
    (arg3 : Memref sig .tc .vmem S1024x256 .f32) (harg3 : arg3.IsWhole)
    (x0 : Vec F S1024x512 .bf16) (x1 : Vec F S512x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__dense_mm_kernel i arg1 harg1 arg2 harg2 arg3 harg3) K := by
  simp only [cc0__dense_mm_kernel_eq_skeleton]; unfold cc0__dense_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of this call on core c: the arrays as the call finds them; after the body at point t each
    input's buffer at its block and the output's at the product of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- An input's current buffer holds its block at every point, whether or not the block was fetched there
    (an unfetched block is the previous point's: its index did not move). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Pallas call 1 of the program: one dense product per grid point. At point t the body reads the whole block of
  its left operand (rows 1024·t … 1024·t+1023) and the whole right operand, multiplies them into a zero
  accumulator and stores the product over the whole output block. This file states what the body leaves in the
  output block as a function of the two input blocks, proves the body's triple, and packages the per-point
  contents as the pipeline's proof data at any contents V of the buffers on entry.
-/
import proofs.«122993_j38096359915635_1_alg».proof.Proof.Gen.KernelIdeal.Launch
import proofs.«122993_j38096359915635_1_alg».proof.Proof.Gen.KernelIdeal.Skeleton
import proofs.«122993_j38096359915635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S1024x256 := Rect.unit (s := S1024x256) ![0, 0] S1024x256.size inb_S1024x256_S1024x256_0_0
abbrev rB1 : Rect S256x256 := Rect.unit (s := S256x256) ![0, 0] S256x256.size inb_S256x256_S256x256_0_0
abbrev rC1 : Rect S1024x256 := Rect.unit (s := S1024x256) ![0, 0] S1024x256.size inb_S1024x256_S1024x256_0_0

/-- The output block after the body: the product of the two input blocks, stored over the whole block. -/
def out1 (x0 : Vec F S1024x256 .bf16) (x1 : Vec F S256x256 .bf16) : Vec F S1024x256 .f32 :=
  View.canon [⟨rC1, k1_pay1 (View.ld x0 rA1) (View.ld x1 rB1)⟩]

/-- The one store covers the output block. -/
theorem cover1 (p0 : Vec F S1024x256 .f32) (y : S1024x256.Idx) :
    ∃ pc ∈ ([⟨rC1, p0⟩] : List (View.Piece (Elt F) S1024x256 .f32)), y ∈ pc.1.set :=
  View.cover_of_tiled [⟨rC1, p0⟩] S1024x256.size (by rfl) y

set_option maxHeartbeats 1000000 in
/-- The body on whole buffers: the inputs keep their contents, the output ends at the product. -/
theorem sound_kernel1 (c : Dev nD) (E : Set ℕ) (i : grid1.Coords)
    (arg1 : Memref sig .tc .vmem S1024x256 .bf16) (harg1 : arg1.IsWhole) (arg2 : Memref sig .tc .vmem S256x256 .bf16) (harg2 : arg2.IsWhole)
    (arg3 : Memref sig .tc .vmem S1024x256 .f32) (harg3 : arg3.IsWhole)
    (x0 : Vec F S1024x256 .bf16) (x1 : Vec F S256x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__dense_mm_kernel i arg1 harg1 arg2 harg2 arg3 harg3) K := by
  simp only [cc1__dense_mm_kernel_eq_skeleton]; unfold cc1__dense_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of this call on core c: the arrays as the call finds them; after the body at point t each
    input's buffer at its block and the output's at the product of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- An input's current buffer holds its block at every point, whether or not the block was fetched there
    (an unfetched block is the previous point's: its index did not move). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  Pallas call 2 of the program: z·zᵀ, tiled over an 8×8 grid. At point (i, j) the body reads row block i of z
  through its first window and row block j of the SAME array z through its second window, transposes the second,
  multiplies into a zero accumulator and stores the 1024×1024 product over the whole output block (i, j). This file
  states what the body leaves in the output block as a function of the two input blocks, proves the body's triple,
  and packages the per-point contents as the pipeline's proof data at any contents V of the buffers on entry. The
  two input windows sit on one array, so each holds half of that array's share.
-/
import proofs.«122993_j38096359915635_1_alg».proof.Proof.Gen.KernelIdeal.Launch
import proofs.«122993_j38096359915635_1_alg».proof.Proof.Gen.KernelIdeal.Skeleton
import proofs.«122993_j38096359915635_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S1024x128 := Rect.unit (s := S1024x128) ![0, 0] S1024x128.size inb_S1024x128_S1024x128_0_0
abbrev rB2 : Rect S1024x128 := Rect.unit (s := S1024x128) ![0, 0] S1024x128.size inb_S1024x128_S1024x128_0_0
abbrev rC2 : Rect S1024x1024 := Rect.unit (s := S1024x1024) ![0, 0] S1024x1024.size inb_S1024x1024_S1024x1024_0_0

/-- The output block after the body: the product of the two input blocks, stored over the whole block. -/
def out2 (x0 : Vec F S1024x128 .bf16) (x1 : Vec F S1024x128 .bf16) : Vec F S1024x1024 .f32 :=
  View.canon [⟨rC2, k2_pay1 (View.ld x0 rA2) (View.ld x1 rB2)⟩]

/-- The one store covers the output block. -/
theorem cover2 (p0 : Vec F S1024x1024 .f32) (y : S1024x1024.Idx) :
    ∃ pc ∈ ([⟨rC2, p0⟩] : List (View.Piece (Elt F) S1024x1024 .f32)), y ∈ pc.1.set :=
  View.cover_of_tiled [⟨rC2, p0⟩] S1024x1024.size (by rfl) y

set_option maxHeartbeats 1000000 in
/-- The body on whole buffers: the inputs keep their contents, the output ends at the product. -/
theorem sound_kernel2 (c : Dev nD) (E : Set ℕ) (i : grid2.Coords)
    (arg1 : Memref sig .tc .vmem S1024x128 .bf16) (harg1 : arg1.IsWhole) (arg2 : Memref sig .tc .vmem S1024x128 .bf16) (harg2 : arg2.IsWhole)
    (arg3 : Memref sig .tc .vmem S1024x1024 .f32) (harg3 : arg3.IsWhole)
    (x0 : Vec F S1024x128 .bf16) (x1 : Vec F S1024x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__sym_mm_kernel i arg1 harg1 arg2 harg2 arg3 harg3) K := by
  simp only [cc2__sym_mm_kernel_eq_skeleton]; unfold cc2__sym_mm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of this call on core c: the arrays as the call finds them; after the body at point t each
    input's buffer at its block and the output's at the product of the input blocks; nothing owed; the two input windows at the two halves of their common array's share, the output at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- An input's current buffer holds its block at every point, whether or not the block was fetched there
    (an unfetched block is the previous point's: its index did not move). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIShared2.lean ====
/-
  Pallas call 2 reads ONE array, z, through two windows (row block i and row block j). The pipeline wants each
  window to hold its array at some share; the two windows on z hold the two halves of z's full share, and the output
  window holds its array whole. This file moves between that form and the plain form "every buffer not private to a
  call is held whole": on entry z's full share is split in two, on exit the halves are put back together.
-/
import proofs.«122993_j38096359915635_1_alg».proof.Proof.KIRegion2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the three windows' arrays: z and the output. -/
theorem arrImage2 : (Finset.univ.image (Pipeline.arrRef (cfgs 2).spec) : Finset (Ref sig .tc)) = {main_v50, main_v51} := by decide

/-- The windows' arrays at contents G, window by window: z at its left half-share for window 0, z at its right
    half-share for window 1, the output at the full share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc main_v50) ↦{fullShare.left} G 0) ∗ (((c : Thread nD τ).loc main_v50) ↦{fullShare.right} G 1)
          ∗ (((c : Thread nD τ).loc main_v51) ↦{fullShare} G 2)) := by
  unfold Dat.arrays
  rw [bigSep_W2, (arr_whole2 0).set_eq_univ, (arr_whole2 2).set_eq_univ]
  rfl

/-- ENTRY: every unshared buffer held whole at V gives the three windows their arrays at V, z's share split in two,
    beside the buffers the call does not touch. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 winFacts₀2.arr_unscoped c (V c)]
  refine sep_mono ?_ .rfl
  unfold Pipeline.arrBufs
  rw [arrImage2, bigSep_insert (by decide), bigSep_singleton, arrays2_eq]
  exact (sep_mono (pointsTo_share (PosShare.mem_left_op_right fullShare)).1 .rfl).trans Idealize.SL.BI.sep_assoc

/-- EXIT: the three windows' arrays at contents G — the two windows on z agreeing with a valuation V' there, the
    output's being V' at the output — beside the untouched buffers at V are every unshared buffer held whole at
    V', when V' agrees with V off the two arrays. -/
theorem exit2 (c : Dev nD) (V' : (b : Ref sig .tc) → Buf (Elt F) ((c : Thread nD τ).loc b))
    (G : (w : Fin cfg2.W) → Buf (Elt F) ((cfg2.win w).arr.view.loc (c : Thread nD τ)))
    (h0 : G 0 = V' main_v50) (h1 : G 1 = V' main_v50) (h2 : G 2 = V' main_v51)
    (hrest : ∀ b, b ∉ Finset.univ.image (Pipeline.arrRef spec2) → V' b = V c b) :
    iprop((dat2 V c).arrays G ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs
    rw [arrImage2, bigSep_insert (by decide), bigSep_singleton, arrays2_eq, h0, h1, h2]
    exact Idealize.SL.BI.sep_assoc'.trans (sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.KIRun.lean ====
/-
  The whole run of the program: three pallas calls between stretches of host operations. The contents of every
  buffer not private to a call are followed from launch to return (W0 … W6): a stretch of host operations applies
  its operations in order; a pallas call replaces its output array by what its write-backs leave and changes nothing
  else. Each call is a segment whose body obligation is the per-point triple proved for it; the last call reads one
  array through two windows and is entered by splitting that array's share. The result: every weakly fair execution
  terminates without a fault, and the final memory holds W6 at every such buffer — in particular the arguments as
  launched, which no host operation and no call writes.
-/
import proofs.«122993_j38096359915635_1_alg».proof.Proof.KIRegion0
import proofs.«122993_j38096359915635_1_alg».proof.Proof.KIRegion1
import proofs.«122993_j38096359915635_1_alg».proof.Proof.KIShared2
import proofs.«122993_j38096359915635_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => m (c, b)

/-- After the host operations hostOps0. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- After pallas call 0: its output array holds what the call's write-backs leave, every other buffer is as before. -/
def W2 (c : Dev nD) : Valuation τ sig (Elt F) :=
  Function.update (W1 m c) (Proc.devRef .tc main_v2) ((dat0 (U1 m) c).arrAt 2 cfg0.N)
abbrev U2 : (c : Dev nD) → (b : Ref sig .tc) → Buf (Elt F) ((c : Thread nD τ).loc b) := fun c b => W2 m c b
theorem W2_out (c : Dev nD) : W2 m c (Proc.devRef .tc main_v2) = (dat0 (U1 m) c).arrAt 2 cfg0.N := by
  unfold W2; exact Function.update_self ..
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
/-- On exit each window's array holds what the pipeline leaves in it: an input's is untouched, the output's is the new contents. -/
theorem hF0 (c : Dev nD) : ∀ w : Fin cfg0.W, (dat0 (U1 m) c).arrAt w cfg0.N = U2 m c (Pipeline.arrRef spec0 w)
  | ⟨0, _⟩ => ((dat0 (U1 m) c).arrAt_in 0 rfl _).trans ((A_eq0 (U1 m) c 0).trans (W2_of_ne m c main_v0 (by decide)).symm)
  | ⟨1, _⟩ => ((dat0 (U1 m) c).arrAt_in 1 rfl _).trans ((A_eq0 (U1 m) c 1).trans (W2_of_ne m c main_v1 (by decide)).symm)
  | ⟨2, _⟩ => (W2_out m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)

/-- After the host operations hostOps1. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- After pallas call 1: its output array holds what the call's write-backs leave, every other buffer is as before. -/
def W4 (c : Dev nD) : Valuation τ sig (Elt F) :=
  Function.update (W3 m c) (Proc.devRef .tc main_v21) ((dat1 (U3 m) c).arrAt 2 cfg1.N)
abbrev U4 : (c : Dev nD) → (b : Ref sig .tc) → Buf (Elt F) ((c : Thread nD τ).loc b) := fun c b => W4 m c b
theorem W4_out (c : Dev nD) : W4 m c (Proc.devRef .tc main_v21) = (dat1 (U3 m) c).arrAt 2 cfg1.N := by
  unfold W4; exact Function.update_self ..
theorem W4_of_ne (c : Dev nD) (b : Ref sig .tc) (hb : b ≠ main_v21) : W4 m c (Proc.devRef .tc b) = W3 m c (Proc.devRef .tc b) := by
  unfold W4; exact Function.update_of_ne (StableHlo.devRef_ne_of_ne hb) _ _
/-- On exit each window's array holds what the pipeline leaves in it: an input's is untouched, the output's is the new contents. -/
theorem hF1 (c : Dev nD) : ∀ w : Fin cfg1.W, (dat1 (U3 m) c).arrAt w cfg1.N = U4 m c (Pipeline.arrRef spec1 w)
  | ⟨0, _⟩ => ((dat1 (U3 m) c).arrAt_in 0 rfl _).trans ((A_eq1 (U3 m) c 0).trans (W4_of_ne m c main_v20 (by decide)).symm)
  | ⟨1, _⟩ => ((dat1 (U3 m) c).arrAt_in 1 rfl _).trans ((A_eq1 (U3 m) c 1).trans (W4_of_ne m c main_v19 (by decide)).symm)
  | ⟨2, _⟩ => (W4_out m c).symm
theorem hrest1 (c : Dev nD) : ∀ b, b ∉ Finset.univ.image (Pipeline.arrRef spec1) → U4 m c b = U3 m c b :=
  fun b hb => W4_of_ne m c b fun e => hb (Finset.mem_image.mpr ⟨2, Finset.mem_univ _, e.symm⟩)

/-- After the host operations hostOps2. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- After pallas call 2: its output array holds what the call's write-backs leave, every other buffer is as before. -/
def W6 (c : Dev nD) : Valuation τ sig (Elt F) :=
  Function.update (W5 m c) (Proc.devRef .tc main_v51) ((dat2 (U5 m) c).arrAt 2 cfg2.N)
abbrev U6 : (c : Dev nD) → (b : Ref sig .tc) → Buf (Elt F) ((c : Thread nD τ).loc b) := fun c b => W6 m c b
theorem W6_out (c : Dev nD) : W6 m c (Proc.devRef .tc main_v51) = (dat2 (U5 m) c).arrAt 2 cfg2.N := by
  unfold W6; exact Function.update_self ..
theorem W6_of_ne (c : Dev nD) (b : Ref sig .tc) (hb : b ≠ main_v51) : W6 m c (Proc.devRef .tc b) = W5 m c (Proc.devRef .tc b) := by
  unfold W6; exact Function.update_of_ne (StableHlo.devRef_ne_of_ne hb) _ _
/-- On exit each window's array holds what the pipeline leaves in it: an input's is untouched, the output's is the new contents. -/
theorem hF2 (c : Dev nD) : ∀ w : Fin cfg2.W, (dat2 (U5 m) c).arrAt w cfg2.N = U6 m c (Pipeline.arrRef spec2 w)
  | ⟨0, _⟩ => ((dat2 (U5 m) c).arrAt_in 0 rfl _).trans ((A_eq2 (U5 m) c 0).trans (W6_of_ne m c main_v50 (by decide)).symm)
  | ⟨1, _⟩ => ((dat2 (U5 m) c).arrAt_in 1 rfl _).trans ((A_eq2 (U5 m) c 1).trans (W6_of_ne m c main_v50 (by decide)).symm)
  | ⟨2, _⟩ => (W6_out m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)

/-- A buffer that no host operation writes and that is no call's output ends as launched. -/
theorem W6_keeps (c : Dev nD) (b : Ref sig .tc) (h0 : b ∉ hostOps0_W) (h1 : b ∉ hostOps1_W) (h2 : b ∉ hostOps2_W)
    (hb2 : b ≠ main_v2) (hb21 : b ≠ main_v21) (hb51 : b ≠ main_v51) :
    W6 m c (Proc.devRef .tc b) = m ((c : Thread nD τ).loc b) :=
  (W6_of_ne m c b hb51).trans <| (StableHlo.after_of_writes_sub hostOps2 _ hostOps2_writes h2).trans <|
    (W4_of_ne m c b hb21).trans <| (StableHlo.after_of_writes_sub hostOps1 _ hostOps1_writes h1).trans <|
    (W2_of_ne m c b hb2).trans <| (StableHlo.after_of_writes_sub hostOps0 _ hostOps0_writes h0).trans rfl
theorem W6_main_arg0 (c : Dev nD) : W6 m c (Proc.devRef .tc main_arg0) = m ((c : Thread nD τ).loc main_arg0) :=
  W6_keeps m c main_arg0 (by decide) (by decide) (by decide) (by decide) (by decide) (by decide)
theorem W6_main_arg1 (c : Dev nD) : W6 m c (Proc.devRef .tc main_arg1) = m ((c : Thread nD τ).loc main_arg1) :=
  W6_keeps m c main_arg1 (by decide) (by decide) (by decide) (by decide) (by decide) (by decide)
theorem W6_main_arg2 (c : Dev nD) : W6 m c (Proc.devRef .tc main_arg2) = m ((c : Thread nD τ).loc main_arg2) :=
  W6_keeps m c main_arg2 (by decide) (by decide) (by decide) (by decide) (by decide) (by decide)
theorem W6_main_arg3 (c : Dev nD) : W6 m c (Proc.devRef .tc main_arg3) = m ((c : Thread nD τ).loc main_arg3) :=
  W6_keeps m c main_arg3 (by decide) (by decide) (by decide) (by decide) (by decide) (by decide)
theorem W6_main_arg4 (c : Dev nD) : W6 m c (Proc.devRef .tc main_arg4) = m ((c : Thread nD τ).loc main_arg4) :=
  W6_keeps m c main_arg4 (by decide) (by decide) (by decide) (by decide) (by decide) (by decide)
theorem W6_main_arg5 (c : Dev nD) : W6 m c (Proc.devRef .tc main_arg5) = m ((c : Thread nD τ).loc main_arg5) :=
  W6_keeps m c main_arg5 (by decide) (by decide) (by decide) (by decide) (by decide) (by decide)
theorem W6_main_arg6 (c : Dev nD) : W6 m c (Proc.devRef .tc main_arg6) = m ((c : Thread nD τ).loc main_arg6) :=
  W6_keeps m c main_arg6 (by decide) (by decide) (by decide) (by decide) (by decide) (by decide)

/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unshared buffer at W6, the generator register at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- Pallas call 0 as a segment of the program: entered with every unshared buffer held at W1, left with them
    at W2. Its windows' arrays are taken out of those buffers on entry and put back at their final contents on
    exit; the generator register passes through the call's invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the program: entered with every unshared buffer held at W3, left with them
    at W4. Its windows' arrays are taken out of those buffers on entry and put back at their final contents on
    exit; the generator register passes through the call's invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 as a segment of the program: entered with every unshared buffer held at W5, left with them
    at W6. Its windows' arrays are taken out of those buffers on entry and put back at their final contents on
    exit; the generator register passes through the call's invariant; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := entry2 (F := F) (U5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) (U5 m) c (U6 m c) ((pdats m 2 c).arrAt · cfg2.N) (hF2 m c 0) (hF2 m c 1) (hF2 m c 2) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- The program's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds W6 at every buffer that is not private to a call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KIValue0.lean ====
/-
  What pallas call 0 leaves in its output array, on the extended reals: the plain product of its two operand
  arrays, entry (r, c) = Σ_k A[r, k] · B[k, c]. Point t of the grid computes rows 1024·t … 1024·t + 1023: the body's
  matmul into a zero accumulator reads, at entry (p, c) of the block, Σ_k x0[p, k] · x1[k, c], where x0 is row block t
  of A and x1 is all of B. The eight row blocks tile the output, so the final array is the product everywhere.
-/
import proofs.«122993_j38096359915635_1_alg».proof.Proof.KIRegion0
import proofs.«122993_j38096359915635_1_alg».proof.Proof.LibPlainDot
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOff0 : (![0, 0] : Fin 2 → Nat) = fun _ => 0 := funext fun a => by fin_cases a <;> rfl

/-- The product of a 8192×512 array and a 512×256 array, entry by entry. -/
def prod0 (A : FVec Ideal S8192x512 .bf16) (B : FVec Ideal S512x256 .bf16) : S8192x256.Idx → EReal :=
  fun i => ∑ k : Fin 512, (A (ix2 (i 0) k) : EReal) * (B (ix2 k (i 1)) : EReal)

/-- The body's product at entry (p, c) of the block. -/
theorem pay0_apply (x0 : FVec Ideal S1024x512 .bf16) (x1 : FVec Ideal S512x256 .bf16) (p : Fin 1024) (c : Fin 256) :
    (k0_pay1 (F := Ideal) x0 x1 (ix2 p c) : EReal) = ∑ k : Fin 512, (x0 (ix2 p k) : EReal) * (x1 (ix2 k c) : EReal) := by
  unfold k0_pay1
  show matmul (F := Ideal) _ none (shapeCast S1024x512 x0 _) (shapeCast S512x256 x1 _) (constant S1024x256 .f32 0x00000000#32) (ix2 p c) = _
  rw [shapeCast_self, shapeCast_self]
  exact Cert.PlainDot.matmul_zero_apply (d := dot_S1024x512_S512x256_S1024x256_1_0_0_1_n_n) ⟨rfl, rfl, rfl, rfl, rfl, rfl⟩ none x0 x1 p c

/-- The printed index maps over the grid: the left operand's and the output's row blocks move together with the
    point, every column block is block 0, the right operand is always its one block. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the operand arrays as the call finds them. -/
theorem flushed0_eq (c : Dev nD) (t : Fin cfg0.N) :
    (dat0 V c).flushed 2 t = ((cfg0.win 2).blk t).view.read (Elt Ideal) (prod0 (V c main_v0) (V c main_v1)) := by
  show (cfg0.win 2).cut (grid0.coords t) ((dat0 V c).after 2 t) = _
  rw [after0_2]
  unfold out0
  rw [View.canon_unit_zero zeroOff0]
  simp only [View.ld_unit_zero (S := S1024x512) zeroOff0, View.ld_unit_zero (S := S512x256) zeroOff0]
  obtain ⟨e0, e1, e2, e3, e4, e5⟩ := idx_facts0 t
  funext j
  show k0_pay1 (iblk0 V c 0 t) (iblk0 V c 1 t) j = prod0 (V c main_v0) (V c main_v1) (((cfg0.win 2).blk t).view.emb j)
  refine ((congrArg (k0_pay1 (iblk0 V c 0 t) (iblk0 V c 1 t)) (eq_ix2 j)).trans (pay0_apply _ _ (j 0) (j 1))).trans ?_
  unfold prod0
  refine Finset.sum_congr rfl fun k _ => ?_
  have hj0 : (j 0).val < 1024 := (j 0).isLt
  have hj1 : (j 1).val < 256 := (j 1).isLt
  have hk : k.val < 512 := k.isLt
  have hA : iblk0 V c 0 t (ix2 (j 0) k) = V c main_v0 (ix2 ((((cfg0.win 2).blk t).view.emb j) 0) k) := by
    show V c main_v0 (((cfg0.win 0).blk t).view.emb (ix2 (j 0) k)) = _
    refine congrArg (V c main_v0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  have hB : iblk0 V c 1 t (ix2 k (j 1)) = V c main_v1 (ix2 k ((((cfg0.win 2).blk t).view.emb j) 1)) := by
    show V c main_v1 (((cfg0.win 1).blk t).view.emb (ix2 k (j 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [hA, hB]

/-- An index of the output array is in point t's block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v2).slice (win0_2.rect t)).set ↔ _
  rw [View.set_slice_whole, Rect.mem_set_unit]
  exact Iff.rfl

/-- Every entry of the output array is in some point's block: row r is in the block of point r / 1024. -/
theorem cover0_all (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 8 := N_0
  let t : Fin cfg0.N := ⟨(i 0).val / 1024, by rw [hN]; omega⟩
  obtain ⟨e0, e1, e2, e3, e4, e5⟩ := idx_facts0 t
  have e5' : win0_2.index t (0 : Fin 2) = (i 0).val / 1024 := e5
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE OUTPUT ARRAY after the call: the product of the two operand arrays as the call finds them. -/
theorem final0 (c : Dev nD) : (dat0 V c).arrAt 2 cfg0.N = prod0 (V c main_v0) (V c main_v1) :=
  (dat0 V c).arrAt_eq_of_cover 2 _ (fun t _ => flushed0_eq V c t) (cover0_all)

end Cert.KernelIdeal.Hand

end
-- ==== Proof.KIValue1.lean ====
/-
  What pallas call 1 leaves in its output array, on the extended reals: the plain product of its two operand
  arrays, entry (r, c) = Σ_k A[r, k] · B[k, c]. Point t of the grid computes rows 1024·t … 1024·t + 1023: the body's
  matmul into a zero accumulator reads, at entry (p, c) of the block, Σ_k x0[p, k] · x1[k, c], where x0 is row block t
  of A and x1 is all of B. The eight row blocks tile the output, so the final array is the product everywhere.
-/
import proofs.«122993_j38096359915635_1_alg».proof.Proof.KIRegion1
import proofs.«122993_j38096359915635_1_alg».proof.Proof.LibPlainDot
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOff1 : (![0, 0] : Fin 2 → Nat) = fun _ => 0 := funext fun a => by fin_cases a <;> rfl

/-- The product of a 8192×256 array and a 256×256 array, entry by entry. -/
def prod1 (A : FVec Ideal S8192x256 .bf16) (B : FVec Ideal S256x256 .bf16) : S8192x256.Idx → EReal :=
  fun i => ∑ k : Fin 256, (A (ix2 (i 0) k) : EReal) * (B (ix2 k (i 1)) : EReal)

/-- The body's product at entry (p, c) of the block. -/
theorem pay1_apply (x0 : FVec Ideal S1024x256 .bf16) (x1 : FVec Ideal S256x256 .bf16) (p : Fin 1024) (c : Fin 256) :
    (k1_pay1 (F := Ideal) x0 x1 (ix2 p c) : EReal) = ∑ k : Fin 256, (x0 (ix2 p k) : EReal) * (x1 (ix2 k c) : EReal) := by
  unfold k1_pay1
  show matmul (F := Ideal) _ none (shapeCast S1024x256 x0 _) (shapeCast S256x256 x1 _) (constant S1024x256 .f32 0x00000000#32) (ix2 p c) = _
  rw [shapeCast_self, shapeCast_self]
  exact Cert.PlainDot.matmul_zero_apply (d := dot_S1024x256_S256x256_S1024x256_1_0_0_1_n_n) ⟨rfl, rfl, rfl, rfl, rfl, rfl⟩ none x0 x1 p c

/-- The printed index maps over the grid: the left operand's and the output's row blocks move together with the
    point, every column block is block 0, the right operand is always its one block. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point t writes back is block t of the product of the operand arrays as the call finds them. -/
theorem flushed1_eq (c : Dev nD) (t : Fin cfg1.N) :
    (dat1 V c).flushed 2 t = ((cfg1.win 2).blk t).view.read (Elt Ideal) (prod1 (V c main_v20) (V c main_v19)) := by
  show (cfg1.win 2).cut (grid1.coords t) ((dat1 V c).after 2 t) = _
  rw [after1_2]
  unfold out1
  rw [View.canon_unit_zero zeroOff1]
  simp only [View.ld_unit_zero (S := S1024x256) zeroOff1, View.ld_unit_zero (S := S256x256) zeroOff1]
  obtain ⟨e0, e1, e2, e3, e4, e5⟩ := idx_facts1 t
  funext j
  show k1_pay1 (iblk1 V c 0 t) (iblk1 V c 1 t) j = prod1 (V c main_v20) (V c main_v19) (((cfg1.win 2).blk t).view.emb j)
  refine ((congrArg (k1_pay1 (iblk1 V c 0 t) (iblk1 V c 1 t)) (eq_ix2 j)).trans (pay1_apply _ _ (j 0) (j 1))).trans ?_
  unfold prod1
  refine Finset.sum_congr rfl fun k _ => ?_
  have hj0 : (j 0).val < 1024 := (j 0).isLt
  have hj1 : (j 1).val < 256 := (j 1).isLt
  have hk : k.val < 256 := k.isLt
  have hA : iblk1 V c 0 t (ix2 (j 0) k) = V c main_v20 (ix2 ((((cfg1.win 2).blk t).view.emb j) 0) k) := by
    show V c main_v20 (((cfg1.win 0).blk t).view.emb (ix2 (j 0) k)) = _
    refine congrArg (V c main_v20) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 256 + 1 * k.val = k.val; omega
  have hB : iblk1 V c 1 t (ix2 k (j 1)) = V c main_v19 (ix2 k ((((cfg1.win 2).blk t).view.emb j) 1)) := by
    show V c main_v19 (((cfg1.win 1).blk t).view.emb (ix2 k (j 1))) = _
    refine congrArg (V c main_v19) (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega
  rw [hA, hB]

/-- An index of the output array is in point t's block iff each coordinate is in the block's range on its axis. -/
theorem mem_blk1 (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v21).slice (win1_2.rect t)).set ↔ _
  rw [View.set_slice_whole, Rect.mem_set_unit]
  exact Iff.rfl

/-- Every entry of the output array is in some point's block: row r is in the block of point r / 1024. -/
theorem cover1_all (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 8 := N_1
  let t : Fin cfg1.N := ⟨(i 0).val / 1024, by rw [hN]; omega⟩
  obtain ⟨e0, e1, e2, e3, e4, e5⟩ := idx_facts1 t
  have e5' : win1_2.index t (0 : Fin 2) = (i 0).val / 1024 := e5
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

/-- THE OUTPUT ARRAY after the call: the product of the two operand arrays as the call finds them. -/
theorem final1 (c : Dev nD) : (dat1 V c).arrAt 2 cfg1.N = prod1 (V c main_v20) (V c main_v19) :=
  (dat1 V c).arrAt_eq_of_cover 2 _ (fun t _ => flushed1_eq V c t) (cover1_all)

end Cert.KernelIdeal.Hand

end
-- ==== Proof.KIValue2.lean ====
/-
  What pallas call 2 leaves in its output array, on the extended reals: z·zᵀ, entry (r, s) = Σ_k z[r, k] · z[s, k].
  Point (i, j) of the 8×8 grid reads row block i of z through the first window and row block j of z through the
  second; the body transposes the second block and multiplies into a zero accumulator, so entry (p, q) of the output
  block is Σ_k x0[p, k] · x1[q, k]. The 64 blocks of 1024×1024 tile the output, so the final array is z·zᵀ everywhere.
-/
import proofs.«122993_j38096359915635_1_alg».proof.Proof.KIRegion2
import proofs.«122993_j38096359915635_1_alg».proof.Proof.LibPlainDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOff2 : (![0, 0] : Fin 2 → Nat) = fun _ => 0 := funext fun a => by fin_cases a <;> rfl

/-- z·zᵀ for an 8192×128 array z, entry by entry. -/
def gram (z : FVec Ideal S8192x128 .bf16) : S8192x8192.Idx → EReal :=
  fun i => ∑ k : Fin 128, (z (ix2 (i 0) k) : EReal) * (z (ix2 (i 1) k) : EReal)

/-- The body's product at entry (p, q) of the block: the second operand is transposed first. -/
theorem pay2_apply (x0 x1 : FVec Ideal S1024x128 .bf16) (p q : Fin 1024) :
    (k2_pay1 (F := Ideal) x0 x1 (ix2 p q) : EReal) = ∑ k : Fin 128, (x0 (ix2 p k) : EReal) * (x1 (ix2 q k) : EReal) := by
  unfold k2_pay1
  show matmul (F := Ideal) _ none (shapeCast S1024x128 x0 _) (transpose S128x1024 [1, 0] (shapeCast S1024x128 x1 _) _) (constant S1024x1024 .f32 0x00000000#32) (ix2 p q) = _
  rw [shapeCast_self, shapeCast_self]
  refine (Cert.PlainDot.matmul_zero_apply (d := dot_S1024x128_S128x1024_S1024x1024_1_0_0_1_n_n) ⟨rfl, rfl, rfl, rfl, rfl, rfl⟩ none x0 _ p q).trans ?_
  refine Finset.sum_congr rfl fun k _ => ?_
  rw [transpose_ix2_apply]

/-- The printed index maps over the grid: the first window's row block and the output's row block move together,
    the second window's row block is the output's column block, the operand windows' column block is block 0. -/
theorem idx_facts2 : ∀ t : Fin cfg2.N, win2_0.index t (0 : Fin 2) = win2_2.index t (0 : Fin 2)
    ∧ win2_0.index t (1 : Fin 2) = 0 ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)

/-- Every one of the 8×8 output blocks is some point's. -/
theorem idx_onto2 : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What point t writes back is block t of z·zᵀ, z the operand array as the call finds it. -/
theorem flushed2_eq (c : Dev nD) (t : Fin cfg2.N) :
    (dat2 V c).flushed 2 t = ((cfg2.win 2).blk t).view.read (Elt Ideal) (gram (V c main_v50)) := by
  show (cfg2.win 2).cut (grid2.coords t) ((dat2 V c).after 2 t) = _
  rw [after2_2]
  unfold out2
  rw [View.canon_unit_zero zeroOff2]
  simp only [View.ld_unit_zero (S := S1024x128) zeroOff2]
  obtain ⟨e0, e1, e2, e3, e4, e5⟩ := idx_facts2 t
  funext j
  show k2_pay1 (iblk2 V c 0 t) (iblk2 V c 1 t) j = gram (V c main_v50) (((cfg2.win 2).blk t).view.emb j)
  refine ((congrArg (k2_pay1 (iblk2 V c 0 t) (iblk2 V c 1 t)) (eq_ix2 j)).trans (pay2_apply _ _ (j 0) (j 1))).trans ?_
  unfold gram
  refine Finset.sum_congr rfl fun k _ => ?_
  have hj0 : (j 0).val < 1024 := (j 0).isLt
  have hj1 : (j 1).val < 1024 := (j 1).isLt
  have hk : k.val < 128 := k.isLt
  have hA : iblk2 V c 0 t (ix2 (j 0) k) = V c main_v50 (ix2 ((((cfg2.win 2).blk t).view.emb j) 0) k) := by
    show V c main_v50 (((cfg2.win 0).blk t).view.emb (ix2 (j 0) k)) = _
    refine congrArg (V c main_v50) (funext fun a => Fin.ext ?_)
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 128 + 1 * k.val = k.val; omega
  have hB : iblk2 V c 1 t (ix2 (j 1) k) = V c main_v50 (ix2 ((((cfg2.win 2).blk t).view.emb j) 1) k) := by
    show V c main_v50 (((cfg2.win 1).blk t).view.emb (ix2 (j 1) k)) = _
    refine congrArg (V c main_v50) (funext fun a => Fin.ext ?_)
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 128 + 1 * k.val = k.val; omega
  rw [hA, hB]

/-- An index of the output array is in point t's block iff each coordinate is in the block's range on its axis. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v51).slice (win2_2.rect t)).set ↔ _
  rw [View.set_slice_whole, Rect.mem_set_unit]
  exact Iff.rfl

/-- Every entry of the output array is in some point's block: entry (r, s) is in block (r / 1024, s / 1024). -/
theorem cover2_all (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- THE OUTPUT ARRAY after the call: z·zᵀ of the operand array as the call finds it. -/
theorem final2 (c : Dev nD) : (dat2 V c).arrAt 2 cfg2.N = gram (V c main_v50) :=
  (dat2 V c).arrAt_eq_of_cover 2 _ (fun t _ => flushed2_eq V c t) (cover2_all)

end Cert.KernelIdeal.Hand

end
-- ==== Proof.Bridge.lean ====
/-
  The three places where the kernel's program and the reference compute the same array in different ways, on the
  extended reals, where a change of float format is the identity.
  * The first pallas call's product of the bf16-rounded operands is the reference's product x·W1: the same sum over
    the 512 contracted coordinates, entry by entry.
  * The second pallas call multiplies h1 by the two weight matrices laid side by side, [W2 | W3], and the program
    then cuts the 256 columns of the result in two. Column c < 128 of h1·[W2 | W3] is column c of h1·W2, and column
    128 + c is column c of h1·W3: entry (r, c) of either is Σ_k h1[r, k] · W[k, c], the concatenation read on its left
    or right half.
  * The third pallas call's z·zᵀ, computed block by block, is the reference's product of z with its transpose:
    entry (r, s) of both is Σ_k z[r, k] · z[s, k].
-/
import proofs.«122993_j38096359915635_1_alg».proof.Proof.KIValue0
import proofs.«122993_j38096359915635_1_alg».proof.Proof.KIValue1
import proofs.«122993_j38096359915635_1_alg».proof.Proof.KIValue2
import proofs.«122993_j38096359915635_1_alg».proof.Proof.Gen.ReferenceIdeal.Read

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Call 0 against the reference's x·W1. -/
theorem prod0_truncf (x0 : FVec Ideal S8192x512 .f32) (x1 : FVec Ideal S512x256 .f32) (h : FTy.bf16.bits < FTy.f32.bits) :
    prod0 (truncf .bf16 x0 h) (truncf .bf16 x1 h) = Cert.ReferenceIdeal.Read.val_main_v0 (F := Ideal) x0 x1 := by
  funext i
  obtain ⟨p, q, rfl⟩ : ∃ (p : Fin 8192) (q : Fin 256), i = ix2 p q := ⟨i 0, i 1, eq_ix2 i⟩
  unfold Cert.ReferenceIdeal.Read.val_main_v0
  exact (Cert.PlainDot.dotGeneral_apply (d := Cert.ReferenceIdeal.dot_S8192x512_S512x256_S8192x256_1_0_0_1_n_n) ⟨rfl, rfl, rfl, rfl, rfl, rfl⟩ none x0 x1 p q).symm

/-- The left half of the columns of h·[W2 | W3] is h·W2. -/
theorem slice_left (H : FVec Ideal S8192x256 .f32) (x2 x3 : FVec Ideal S256x128 .f32) (h : FTy.bf16.bits < FTy.f32.bits)
    (hc : Shape.Concatenates [S256x128, S256x128] S256x256 1) (hs : S8192x256.Slices ![0, 0] S8192x128) :
    extractStridedSlice S8192x128 ![0, 0] (prod1 (truncf .bf16 H h) (truncf .bf16 (concatenate S256x256 1 [⟨S256x128, x2⟩, ⟨S256x128, x3⟩] hc) h)) hs
      = Host.dotGeneral (F := Ideal) Cert.ReferenceIdeal.dot_S8192x256_S256x128_S8192x128_1_0_0_1_n_n none H x2 := by
  funext i
  obtain ⟨p, q, rfl⟩ : ∃ (p : Fin 8192) (q : Fin 128), i = ix2 p q := ⟨i 0, i 1, eq_ix2 i⟩
  have hq : q.val < 128 := q.isLt
  rw [extractStridedSlice_apply _ _ hs (ix2 p q) (ix2 p (⟨q.val, by omega⟩ : Fin 256)) (fun a => by
    match a with
    | ⟨0, _⟩ => show p.val = 0 + p.val; omega
    | ⟨1, _⟩ => show q.val = 0 + q.val; omega)]
  refine Eq.trans ?_ (Cert.PlainDot.dotGeneral_apply (d := Cert.ReferenceIdeal.dot_S8192x256_S256x128_S8192x128_1_0_0_1_n_n) ⟨rfl, rfl, rfl, rfl, rfl, rfl⟩ none H x2 p q).symm
  show ∑ k : Fin 256, (H (ix2 p k) : EReal) * (concatenate S256x256 1 [⟨S256x128, x2⟩, ⟨S256x128, x3⟩] hc (ix2 k (⟨q.val, by omega⟩ : Fin 256)) : EReal) = _
  refine Finset.sum_congr rfl fun k _ => ?_
  rw [concatenate_pair_apply_left (1 : Fin 2) x2 x3 hc (ix2 k (⟨q.val, by omega⟩ : Fin 256)) rfl (ix2 k q) (fun b => by
    match b with
    | ⟨0, _⟩ => rfl
    | ⟨1, _⟩ => rfl)]

/-- The right half of the columns of h·[W2 | W3] is h·W3. -/
theorem slice_right (H : FVec Ideal S8192x256 .f32) (x2 x3 : FVec Ideal S256x128 .f32) (h : FTy.bf16.bits < FTy.f32.bits)
    (hc : Shape.Concatenates [S256x128, S256x128] S256x256 1) (hs : S8192x256.Slices ![0, 128] S8192x128) :
    extractStridedSlice S8192x128 ![0, 128] (prod1 (truncf .bf16 H h) (truncf .bf16 (concatenate S256x256 1 [⟨S256x128, x2⟩, ⟨S256x128, x3⟩] hc) h)) hs
      = Host.dotGeneral (F := Ideal) Cert.ReferenceIdeal.dot_S8192x256_S256x128_S8192x128_1_0_0_1_n_n none H x3 := by
  funext i
  obtain ⟨p, q, rfl⟩ : ∃ (p : Fin 8192) (q : Fin 128), i = ix2 p q := ⟨i 0, i 1, eq_ix2 i⟩
  have hq : q.val < 128 := q.isLt
  rw [extractStridedSlice_apply _ _ hs (ix2 p q) (ix2 p (⟨128 + q.val, by omega⟩ : Fin 256)) (fun a => by
    match a with
    | ⟨0, _⟩ => show p.val = 0 + p.val; omega
    | ⟨1, _⟩ => show 128 + q.val = 128 + q.val; rfl)]
  refine Eq.trans ?_ (Cert.PlainDot.dotGeneral_apply (d := Cert.ReferenceIdeal.dot_S8192x256_S256x128_S8192x128_1_0_0_1_n_n) ⟨rfl, rfl, rfl, rfl, rfl, rfl⟩ none H x3 p q).symm
  show ∑ k : Fin 256, (H (ix2 p k) : EReal) * (concatenate S256x256 1 [⟨S256x128, x2⟩, ⟨S256x128, x3⟩] hc (ix2 k (⟨128 + q.val, by omega⟩ : Fin 256)) : EReal) = _
  refine Finset.sum_congr rfl fun k _ => ?_
  rw [concatenate_pair_apply_right (1 : Fin 2) x2 x3 hc (ix2 k (⟨128 + q.val, by omega⟩ : Fin 256)) rfl rfl (ix2 k q) (fun b hb => by
    match b with
    | ⟨0, _⟩ => rfl
    | ⟨1, _⟩ => exact absurd rfl hb) (by show q.val + 128 = 128 + q.val; omega)]

/-- Call 2 against the reference's product of z with its transpose. -/
theorem gram_truncf (z : FVec Ideal S8192x128 .f32) (h : FTy.bf16.bits < FTy.f32.bits) (ht : S8192x128.Transposes [1, 0] Cert.ReferenceIdeal.S128x8192) :
    gram (truncf .bf16 z h) = Host.dotGeneral (F := Ideal) Cert.ReferenceIdeal.dot_S8192x128_S128x8192_S8192x8192_1_0_0_1_n_n none z (transpose Cert.ReferenceIdeal.S128x8192 [1, 0] z ht) := by
  funext i
  obtain ⟨p, q, rfl⟩ : ∃ (p q : Fin 8192), i = ix2 p q := ⟨i 0, i 1, eq_ix2 i⟩
  refine Eq.trans ?_ (Cert.PlainDot.dotGeneral_apply (d := Cert.ReferenceIdeal.dot_S8192x128_S128x8192_S8192x8192_1_0_0_1_n_n) ⟨rfl, rfl, rfl, rfl, rfl, rfl⟩ none z (transpose Cert.ReferenceIdeal.S128x8192 [1, 0] z ht) p q).symm
  show ∑ k : Fin 128, (z (ix2 p k) : EReal) * (z (ix2 q k) : EReal) = _
  refine Finset.sum_congr rfl fun k _ => ?_
  rw [transpose_ix2_apply]

end Cert.KernelIdeal.Hand

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KIHost.lean ====
/-
  The values the kernel's program computes, on the extended reals, as the reference's functions of the arguments.
  The buffers are followed through the run: the two bf16 roundings before the first pallas call change nothing; the
  call's product is the reference's x·W1; the host operations after it (gather the rows named by col, scale by the
  edge weights, add the rows into the places named by row, clamp at zero) are the reference's own operations, so h1 is
  the reference's h1; the second call's product with [W2 | W3], cut in two, gives the reference's h1·W2 and h1·W3, and
  the same aggregation turns them into mu and logvar; the third call's z·zᵀ of z = mu is the reference's product of mu
  with its transpose.
-/
import proofs.«122993_j38096359915635_1_alg».proof.Proof.KIRun
import proofs.«122993_j38096359915635_1_alg».proof.Proof.Bridge
import proofs.«122993_j38096359915635_1_alg».proof.Proof.LibHostWalk
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ)

/-- A buffer the first stretch of host operations does not write and that is not the first call's output still
    holds its launch contents after that call. -/
theorem W2_keeps (c : Dev nD) (b : Ref sig .tc) (h0 : b ∉ hostOps0_W) (hb : b ≠ main_v2) :
    W2 m c (Proc.devRef .tc b) = m ((c : Thread nD τ).loc b) :=
  (W2_of_ne m c b hb).trans ((StableHlo.after_of_writes_sub hostOps0 _ hostOps0_writes h0).trans rfl)
/-- The same after the second call. -/
theorem W4_keeps (c : Dev nD) (b : Ref sig .tc) (h0 : b ∉ hostOps0_W) (h1 : b ∉ hostOps1_W) (hb : b ≠ main_v2) (hb' : b ≠ main_v21) :
    W4 m c (Proc.devRef .tc b) = m ((c : Thread nD τ).loc b) :=
  (W4_of_ne m c b hb').trans ((StableHlo.after_of_writes_sub hostOps1 _ hostOps1_writes h1).trans (W2_keeps m c b h0 hb))

/-- Before the first call: the operands are the arguments x and W1, rounded. -/
theorem W1_v0 (c : Dev nD) : W1 m c (Proc.devRef .tc main_v0) = (truncf .bf16 ((m ((c : Thread nD τ).loc main_arg0)) : FVec Ideal S8192x512 .f32) bitsLt_bf16_f32 : FVec Ideal S8192x512 .bf16) := by
  show StableHlo.after hostOps0 (W0 m c) (Proc.devRef .tc main_v0) = _
  after_results
theorem W1_v1 (c : Dev nD) : W1 m c (Proc.devRef .tc main_v1) = (truncf .bf16 ((m ((c : Thread nD τ).loc main_arg1)) : FVec Ideal S512x256 .f32) bitsLt_bf16_f32 : FVec Ideal S512x256 .bf16) := by
  show StableHlo.after hostOps0 (W0 m c) (Proc.devRef .tc main_v1) = _
  after_results

/-- The first call's output is the reference's x·W1. -/
theorem W2_v2 (c : Dev nD) : W2 m c (Proc.devRef .tc main_v2) = Cert.ReferenceIdeal.Read.val_main_v0 (F := Ideal) (m ((c : Thread nD τ).loc main_arg0)) (m ((c : Thread nD τ).loc main_arg1)) := by
  rw [W2_out, final0 (U1 m) c]
  show prod0 (W1 m c (Proc.devRef .tc main_v0)) (W1 m c (Proc.devRef .tc main_v1)) = _
  rw [W1_v0, W1_v1]
  exact prod0_truncf _ _ _

/-- h1, the first result: the reference's. -/
theorem W3_v17 (c : Dev nD) : W3 m c (Proc.devRef .tc main_v17)
    = Cert.ReferenceIdeal.Read.val_main_v14 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 (W2 m c) (Proc.devRef .tc main_v17) = _
  after_results_simp
  rw [W2_v2, W2_keeps m c main_arg4 (by decide) (by decide), W2_keeps m c main_arg5 (by decide) (by decide), W2_keeps m c main_arg6 (by decide) (by decide)]
  rfl
/-- The second call's left operand: h1, rounded. -/
theorem W3_v20 (c : Dev nD) : W3 m c (Proc.devRef .tc main_v20)
    = (truncf .bf16 (Cert.ReferenceIdeal.Read.val_main_v14 (F := Ideal) (m ((c : Thread nD τ).loc main_arg0)) (m ((c : Thread nD τ).loc main_arg1)) (m ((c : Thread nD τ).loc main_arg4)) (m ((c : Thread nD τ).loc main_arg5)) (m ((c : Thread nD τ).loc main_arg6)) : FVec Ideal S8192x256 .f32) bitsLt_bf16_f32 : FVec Ideal S8192x256 .bf16) := by
  show StableHlo.after hostOps1 (W2 m c) (Proc.devRef .tc main_v20) = _
  after_results_simp
  rw [W2_v2, W2_keeps m c main_arg4 (by decide) (by decide), W2_keeps m c main_arg5 (by decide) (by decide), W2_keeps m c main_arg6 (by decide) (by decide)]
  rfl
/-- The second call's right operand: [W2 | W3], rounded. -/
theorem W3_v19 (c : Dev nD) : W3 m c (Proc.devRef .tc main_v19)
    = (truncf .bf16 (concatenate S256x256 1 [⟨S256x128, (m ((c : Thread nD τ).loc main_arg2))⟩, ⟨S256x128, (m ((c : Thread nD τ).loc main_arg3))⟩] concatenates_S256x128_S256x128_S256x256_d1 : FVec Ideal S256x256 .f32) bitsLt_bf16_f32 : FVec Ideal S256x256 .bf16) := by
  show StableHlo.after hostOps1 (W2 m c) (Proc.devRef .tc main_v19) = _
  walk_back []
  rw [W2_keeps m c main_arg2 (by decide) (by decide), W2_keeps m c main_arg3 (by decide) (by decide)]

/-- The second call's output: h1·[W2 | W3]. -/
theorem W4_v21 (c : Dev nD) : W4 m c (Proc.devRef .tc main_v21)
    = prod1 (truncf .bf16 (Cert.ReferenceIdeal.Read.val_main_v14 (F := Ideal) (m ((c : Thread nD τ).loc main_arg0)) (m ((c : Thread nD τ).loc main_arg1)) (m ((c : Thread nD τ).loc main_arg4)) (m ((c : Thread nD τ).loc main_arg5)) (m ((c : Thread nD τ).loc main_arg6)) : FVec Ideal S8192x256 .f32) bitsLt_bf16_f32 : FVec Ideal S8192x256 .bf16)
        (truncf .bf16 (concatenate S256x256 1 [⟨S256x128, (m ((c : Thread nD τ).loc main_arg2))⟩, ⟨S256x128, (m ((c : Thread nD τ).loc main_arg3))⟩] concatenates_S256x128_S256x128_S256x256_d1 : FVec Ideal S256x256 .f32) bitsLt_bf16_f32 : FVec Ideal S256x256 .bf16) := by
  rw [W4_out, final1 (U3 m) c]
  show prod1 (W3 m c (Proc.devRef .tc main_v20)) (W3 m c (Proc.devRef .tc main_v19)) = _
  rw [W3_v20, W3_v19]

/-- mu, the third (and fifth) result: the reference's. -/
theorem W5_v36 (c : Dev nD) : W5 m c (Proc.devRef .tc main_v36)
    = Cert.ReferenceIdeal.Read.val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps2 (W4 m c) (Proc.devRef .tc main_v36) = _
  after_results_simp
  rw [W4_v21, W4_keeps m c main_arg4 (by decide) (by decide) (by decide) (by decide), W4_keeps m c main_arg5 (by decide) (by decide) (by decide) (by decide), W4_keeps m c main_arg6 (by decide) (by decide) (by decide) (by decide), slice_left]
  rfl
/-- logvar, the fourth result: the reference's. -/
theorem W5_v49 (c : Dev nD) : W5 m c (Proc.devRef .tc main_v49)
    = Cert.ReferenceIdeal.Read.val_main_v42 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W4 m c) (Proc.devRef .tc main_v49) = _
  after_results_simp
  rw [W4_v21, W4_keeps m c main_arg4 (by decide) (by decide) (by decide) (by decide), W4_keeps m c main_arg5 (by decide) (by decide) (by decide) (by decide), W4_keeps m c main_arg6 (by decide) (by decide) (by decide) (by decide), slice_right]
  rfl
/-- The third call's operand: mu, rounded. -/
theorem W5_v50 (c : Dev nD) : W5 m c (Proc.devRef .tc main_v50)
    = (truncf .bf16 (Cert.ReferenceIdeal.Read.val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) : FVec Ideal S8192x128 .f32) bitsLt_bf16_f32 : FVec Ideal S8192x128 .bf16) := by
  show StableHlo.after hostOps2 (W4 m c) (Proc.devRef .tc main_v50) = _
  after_results_simp
  rw [W4_v21, W4_keeps m c main_arg4 (by decide) (by decide) (by decide) (by decide), W4_keeps m c main_arg5 (by decide) (by decide) (by decide) (by decide), W4_keeps m c main_arg6 (by decide) (by decide) (by decide) (by decide), slice_left]
  rfl

/-- The five results at the end of the run. -/
theorem W6_v17 (c : Dev nD) : W6 m c (Proc.devRef .tc main_v17)
    = Cert.ReferenceIdeal.Read.val_main_v14 (F := Ideal) (m ((c : Thread nD τ).loc main_arg0)) (m ((c : Thread nD τ).loc main_arg1)) (m ((c : Thread nD τ).loc main_arg4)) (m ((c : Thread nD τ).loc main_arg5)) (m ((c : Thread nD τ).loc main_arg6)) :=
  (W6_of_ne m c main_v17 (by decide)).trans <| (StableHlo.after_of_writes_sub hostOps2 _ hostOps2_writes (by decide)).trans <|
    (W4_of_ne m c main_v17 (by decide)).trans (W3_v17 m c)
theorem W6_v36 (c : Dev nD) : W6 m c (Proc.devRef .tc main_v36)
    = Cert.ReferenceIdeal.Read.val_main_v28 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W6_of_ne m c main_v36 (by decide)).trans (W5_v36 m c)
theorem W6_v49 (c : Dev nD) : W6 m c (Proc.devRef .tc main_v49)
    = Cert.ReferenceIdeal.Read.val_main_v42 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W6_of_ne m c main_v49 (by decide)).trans (W5_v49 m c)
theorem W6_v51 (c : Dev nD) : W6 m c (Proc.devRef .tc main_v51)
    = Cert.ReferenceIdeal.Read.val_main_v44 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  rw [W6_out, final2 (U5 m) c]
  show gram (W5 m c (Proc.devRef .tc main_v50)) = _
  rw [W5_v50]
  exact gram_truncf _ _ _

end Cert.KernelIdeal.Hand

end
-- ==== Proof.lean ====
/-
  The certificate's five claims.
  The kernel's program is three pallas calls (x·W1; h1·[W2 | W3]; z·zᵀ) between stretches of host operations (the sparse
  aggregation: gather rows by col, scale by the edge weights, scatter-add by row; a clamp at zero; roundings to bf16). Its
  frame, at the word level and on the extended reals alike, is its run followed buffer by buffer: no host operation and
  no call writes an argument. On the extended reals the run's final contents of the result buffers are the
  reference's own functions of the arguments: rounding is the identity there, each call's blockwise product is the
  whole product, and column c of h1·[W2 | W3] is column c of h1·W2 or of h1·W3. No law that needs finite inputs is
  used: the two sides are the same sums of the same products, so the precondition is never opened. The ideal pass
  rewrote nothing, so the preservation claim is trivial.
-/
import proofs.«122993_j38096359915635_1_alg».proof.Defs
import proofs.«122993_j38096359915635_1_alg».proof.Proof.Gen.Kernel
import proofs.«122993_j38096359915635_1_alg».proof.Proof.Gen.KernelIdeal
import proofs.«122993_j38096359915635_1_alg».proof.Proof.Gen.ReferenceIdeal
import proofs.«122993_j38096359915635_1_alg».proof.Proof.Gen.Pre_finite_inputs
import proofs.«122993_j38096359915635_1_alg».proof.Proof.Gen.ReferenceIdeal.Read
import proofs.«122993_j38096359915635_1_alg».proof.Proof.KRun
import proofs.«122993_j38096359915635_1_alg».proof.Proof.KIRun
import proofs.«122993_j38096359915635_1_alg».proof.Proof.KIHost
import Idealize.ShloMosaic.Adequacy
import Idealize.ShloMosaic.Init

noncomputable section

namespace Cert.Proof

open Idealize.ShloMosaic Idealize.ShloMosaic.TcCoe Idealize.SL.Sem

/-- The kernel's program at the word level runs to the end and keeps its arguments. -/
theorem frame_kernel : Cert.frame_Kernel := fun m ρ _ => Cert.Kernel.Hand.frame m ρ
/-- So does its reading on the extended reals. -/
theorem frame_kernelIdeal : Cert.frame_KernelIdeal := fun m ρ _ => Cert.KernelIdeal.Hand.frame m ρ
/-- The reference is host operations only: its run keeps the arguments. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)
/-- Nothing was rewritten. -/
theorem preserves : Cert.preserves_Kernel_KernelIdeal := trivial

/-- Both programs end with h1, mu·muᵀ, mu, logvar, mu at the reference's functions of the (agreeing) arguments. -/
theorem algebraic : Cert.algebraic_KernelIdeal_ReferenceIdeal := by
  intro m ρ m' ρ' _ hagree
  refine ⟨fun c => Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Hand.mem_uc Cert.KernelIdeal.main_v17 (by decide))).trans (Cert.KernelIdeal.Hand.W6_v17 m c),
       (h c _ (Cert.KernelIdeal.Hand.mem_uc Cert.KernelIdeal.main_v51 (by decide))).trans (Cert.KernelIdeal.Hand.W6_v51 m c),
       (h c _ (Cert.KernelIdeal.Hand.mem_uc Cert.KernelIdeal.main_v36 (by decide))).trans (Cert.KernelIdeal.Hand.W6_v36 m c),
       (h c _ (Cert.KernelIdeal.Hand.mem_uc Cert.KernelIdeal.main_v49 (by decide))).trans (Cert.KernelIdeal.Hand.W6_v49 m c),
       (h c _ (Cert.KernelIdeal.Hand.mem_uc Cert.KernelIdeal.main_v36 (by decide))).trans (Cert.KernelIdeal.Hand.W6_v36 m c),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c),
       (h c _ (Cert.KernelIdeal.Hand.mem_uc Cert.KernelIdeal.main_arg5 (by decide))).trans (Cert.KernelIdeal.Hand.W6_main_arg5 m c),
       (h c _ (Cert.KernelIdeal.Hand.mem_uc Cert.KernelIdeal.main_arg6 (by decide))).trans (Cert.KernelIdeal.Hand.W6_main_arg6 m c)⟩)
      (Cert.KernelIdeal.Hand.run_all m ρ)
  · exact (θ_run Cert.ReferenceIdeal.defs _ _).mono (fun r h c =>
      ⟨by rw [(h c).1, Cert.ReferenceIdeal.Read.val_main_v14_eq, (hagree c).1, (hagree c).2.1, (hagree c).2.2.2.2.1, (hagree c).2.2.2.2.2.1, (hagree c).2.2.2.2.2.2],
       by rw [(h c).2.1, Cert.ReferenceIdeal.Read.val_main_v44_eq, (hagree c).1, (hagree c).2.1, (hagree c).2.2.1, (hagree c).2.2.2.2.1, (hagree c).2.2.2.2.2.1, (hagree c).2.2.2.2.2.2],
       by rw [(h c).2.2.1, Cert.ReferenceIdeal.Read.val_main_v28_eq, (hagree c).1, (hagree c).2.1, (hagree c).2.2.1, (hagree c).2.2.2.2.1, (hagree c).2.2.2.2.2.1, (hagree c).2.2.2.2.2.2],
       by rw [(h c).2.2.2.1, Cert.ReferenceIdeal.Read.val_main_v42_eq, (hagree c).1, (hagree c).2.1, (hagree c).2.2.2.1, (hagree c).2.2.2.2.1, (hagree c).2.2.2.2.2.1, (hagree c).2.2.2.2.2.2],
       by rw [(h c).2.2.2.2.1, Cert.ReferenceIdeal.Read.val_main_v28_eq, (hagree c).1, (hagree c).2.1, (hagree c).2.2.1, (hagree c).2.2.2.2.1, (hagree c).2.2.2.2.2.1, (hagree c).2.2.2.2.2.2],
       (h c).2.2.2.2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
